-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x2 : Shape := ⟨2, ![1600000, 2]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1600000x2 32) (main_arg2 : FVec F S64x128 .f32) (main_arg3 : FVec F S64 .f32) (main_arg4 : FVec F S64x128 .f32) (main_arg5 : FVec F S64 .f32) (main_arg6 : FVec F S64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x64 : Shape := ⟨2, ![100000, 64]⟩
abbrev S1600000x2 : Shape := ⟨2, ![1600000, 2]⟩
abbrev S64x128 : Shape := ⟨2, ![64, 128]⟩
abbrev S64 : Shape := ⟨1, ![64]⟩
abbrev S1600000x1 : Shape := ⟨2, ![1600000, 1]⟩
abbrev S1600000 : Shape := ⟨1, ![1600000]⟩
abbrev S_ : Shape := ⟨0, ![]⟩
abbrev S1600000x64 : Shape := ⟨2, ![1600000, 64]⟩
abbrev S64x64 : Shape := ⟨2, ![64, 64]⟩
abbrev S1x64 : Shape := ⟨2, ![1, 64]⟩
abbrev S6400x64 : Shape := ⟨2, ![6400, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S5000 : Shape := ⟨1, ![5000]⟩

abbrev nBuf : Space → Nat
  | .hbm => 55
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000x2, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1600000x1, .i32⟩
  | .hbm, ⟨9, _⟩ => ⟨S1600000, .i32⟩
  | .hbm, ⟨10, _⟩ => ⟨S1600000x1, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S_, .f32⟩
  | .hbm, ⟨41, _⟩ => ⟨S1600000, .f32⟩
  | .hbm, ⟨42, _⟩ => ⟨S_, .f32⟩
  | .hbm, ⟨43, _⟩ => ⟨S100000, .f32⟩
  | .hbm, ⟨44, _⟩ => ⟨S1600000x1, .i32⟩
  | .hbm, ⟨45, _⟩ => ⟨S100000, .f32⟩
  | .hbm, ⟨46, _⟩ => ⟨S100000x1, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S6400x64, .f32⟩
  | .local _ .vmem, ⟨8, _⟩ => ⟨S6400x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S64x128_S64x64_0_0 : S64x128.Slices ![0, 0] S64x64
  slices_S64x128_S64x64_0_64 : S64x128.Slices ![0, 64] S64x64
  transposes_S64x64_S64x64_1_0 : S64x64.Transposes [1, 0] S64x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  reduces_S5000x64_S5000 : S5000x64.Reduces [1] S5000
  shapeCasts_S5000_S5000x1 : S5000.ShapeCasts S5000x1
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S1600000x64.size a
  hwx0_5 : ∀ i : grid0.Coords, EltTy.bits .f32 = 32 ∨ (Rect.block (s := S1600000x64) S6400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x2 : Shape := ⟨2, ![1600000, 2]⟩
abbrev S64x128 : Shape := ⟨2, ![64, 128]⟩
abbrev S64 : Shape := ⟨1, ![64]⟩
abbrev S1600000x1 : Shape := ⟨2, ![1600000, 1]⟩
abbrev S1600000 : Shape := ⟨1, ![1600000]⟩
abbrev S64x64 : Shape := ⟨2, ![64, 64]⟩
abbrev S_ : Shape := ⟨0, ![]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x2, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1600000x1, .i32⟩
  | .hbm, ⟨9, _⟩ => ⟨S1600000, .i32⟩
  | .hbm, ⟨10, _⟩ => ⟨S1600000x1, .i32⟩
  | .hbm, ⟨11, _⟩ => ⟨S1600000, .i32⟩
  | .hbm, ⟨12, _⟩ => ⟨S64x64, .f32⟩
  | .hbm, ⟨13, _⟩ => ⟨S64x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S64x64, .f32⟩
  | .hbm, ⟨24, _⟩ => ⟨S1600000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S64x64, .f32⟩
  | .hbm, ⟨35, _⟩ => ⟨S1600000x64, .f32⟩
  | .hbm, ⟨36, _⟩ => ⟨S1600000x64, .f32⟩
  | .hbm, ⟨37, _⟩ => ⟨S1x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S_, .f32⟩
  | .hbm, ⟨48, _⟩ => ⟨S1600000, .f32⟩
  | .hbm, ⟨49, _⟩ => ⟨S_, .f32⟩
  | .hbm, ⟨50, _⟩ => ⟨S100000, .f32⟩
  | .hbm, ⟨51, _⟩ => ⟨S1600000x1, .i32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x64, .f32⟩
  | .hbm, ⟨58, _⟩ => ⟨S100000x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S100000x64, .f32⟩
  | .hbm, ⟨63, _⟩ => ⟨S64x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000, .f32⟩
  | .hbm, ⟨75, _⟩ => ⟨S100000x1, .f32⟩
  | .hbm, ⟨76, _⟩ => ⟨S_, .f32⟩
  | .hbm, ⟨77, _⟩ => ⟨S100000x1, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call1_cst : Ref sig .tc := ⟨.hbm, 69, rfl⟩
abbrev main_call1_v0 : Ref sig .tc := ⟨.hbm, 70, rfl⟩
abbrev main_v51 : Ref sig .tc := ⟨.hbm, 71, rfl⟩
abbrev main_v52 : Ref sig .tc := ⟨.hbm, 72, rfl⟩
abbrev main_cst_6 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  slices_S64x128_S64x64_0_0 : S64x128.Slices ![0, 0] S64x64
  slices_S64x128_S64x64_0_64 : S64x128.Slices ![0, 64] S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S64x64_S64x64_1_0 : S64x64.Transposes [1, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run with its result array named.

  The program is four stretches in a row: host operations, the message kernel over its grid, host operations
  (the two scatter-adds among them), the update kernel over its grid. Every weakly fair execution terminates,
  nothing faulting, with every buffer that outlives the kernels at the contents the last stretch leaves: for the
  result buffer that is the array the update kernel's write-backs leave; for the eight arguments, which no stretch
  writes, the launch contents.
-/
import proofs.«166541_j35613868819191_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents
    the last stretch leaves there and the eight arguments as launched. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunAll

end
-- ==== Proof.Spec.lean ====
/-
  What the two kernels of the message-passing layer compute, entry by entry, over the extended reals.

  A node's row has 64 features. For an edge `p` with gathered source row `xs p` and target row `xt p`,
  the message is `relu (xs p · Ws + xt p · Wt + b)`: entry `q` is the larger of zero and the two row-by-column
  products plus the bias entry. For a node `p` with feature row `x p`, summed incoming messages `ms p` and
  incoming-edge count `cnt p`, the update is the layer normalisation of
  `h = relu (x p · Wx + (ms p / max (cnt p) 1) · Wm + b) + x p`: with `μ` the mean of the 64 entries of `h` and
  `σ²` the mean of the squared deviations, entry `q` is `(h q - μ) · (σ² + ε)^(-1/2) · γ q + β q`.
  The float literals (0, 1, 64 and ε) are kept as the words the programs print: both programs print the same
  words, so they are never evaluated.
-/
import Idealize.ShloMosaic.PureOps.Ideal
import Idealize.ShloMosaic.Lib.ValueIdx

noncomputable section

namespace Cert.Spec

open Idealize.ShloMosaic Idealize.ShloMosaic.ValueIdx
open scoped BigOperators

/-- An `a`-by-`b` array of extended reals. -/
abbrev Mat (a b : ℕ) : Type := (⟨2, ![a, b]⟩ : Shape).Idx → EReal

/-- Entry `(p, q)` of `relu (xs · ws + xt · wt + b)`. -/
def msgAt {a : ℕ} (xs xt : Mat a 64) (ws wt : Mat 64 64) (b : Mat 1 64) (p : Fin a) (q : Fin 64) : EReal :=
  max (((∑ k : Fin 64, xs (ix2 p k) * ws (ix2 k q)) + ∑ k : Fin 64, xt (ix2 p k) * wt (ix2 k q))
    + b (ix2 (0 : Fin 1) q)) (Ideal.ofBits .f32 0x00000000#32)

/-- The messages as one array. -/
def msgArr {a : ℕ} (xs xt : Mat a 64) (ws wt : Mat 64 64) (b : Mat 1 64) : Mat a 64 :=
  fun i => msgAt xs xt ws wt b (i 0) (i 1)

/-- Entry `(p, q)` of `relu (x · wx + (ms / max cnt 1) · wm + b) + x`, the row that is then normalised. -/
def hidAt {a : ℕ} (x ms : Mat a 64) (cnt : Mat a 1) (wx wm : Mat 64 64) (b : Mat 1 64) (p : Fin a) (q : Fin 64) : EReal :=
  max (((∑ k : Fin 64, x (ix2 p k) * wx (ix2 k q))
      + ∑ k : Fin 64, Ideal.div (ms (ix2 p k)) (max (cnt (ix2 p (0 : Fin 1))) (Ideal.ofBits .f32 0x3F800000#32)) * wm (ix2 k q))
    + b (ix2 (0 : Fin 1) q)) (Ideal.ofBits .f32 0x00000000#32) + x (ix2 p q)

/-- The mean of 64 entries: their sum divided by the word for 64. -/
def meanAt (h : Fin 64 → EReal) : EReal := Ideal.div (∑ k : Fin 64, h k) (Ideal.ofBits .f32 0x42800000#32)

/-- Entry `q` of the layer normalisation of the row `h` with scale `g` and shift `be`. -/
def normAt (h : Fin 64 → EReal) (g be : Mat 1 64) (q : Fin 64) : EReal :=
  ((h q - meanAt h) * Ideal.rsqrt (meanAt (fun k => (h k - meanAt h) * (h k - meanAt h)) + Ideal.ofBits .f32 0x3727C5AC#32))
    * g (ix2 (0 : Fin 1) q) + be (ix2 (0 : Fin 1) q)

/-- Entry `(p, q)` of the updated, normalised node features. -/
def updAt {a : ℕ} (x ms : Mat a 64) (cnt : Mat a 1) (wx wm : Mat 64 64) (b g be : Mat 1 64) (p : Fin a) (q : Fin 64) : EReal :=
  normAt (fun k => hidAt x ms cnt wx wm b p k) g be q

/-- The updated node features as one array. -/
def updArr {a : ℕ} (x ms : Mat a 64) (cnt : Mat a 1) (wx wm : Mat 64 64) (b g be : Mat 1 64) : Mat a 64 :=
  fun i => updAt x ms cnt wx wm b g be (i 0) (i 1)

end Cert.Spec

end
-- ==== Proof.HostValue.lean ====
/-
  The host operations of the kernel program around its two kernels, as functions of the arrays they read.

  Before the message kernel: the edge list's two columns as index vectors, a negative index wrapped by the
  number of nodes, the rows of the node features gathered at the wrapped indices, the two halves of a [64, 128]
  weight transposed, a [64] vector re-laid as a [1, 64] row. Between the kernels: the messages summed into their
  target nodes (a scatter-add into zeros at the raw target indices) and the incoming edges counted the same way
  (ones scattered into zeros), kept as a column.
-/
import proofs.«166541_j35613868819191_1_alg».proof.Proof.Gen.KernelIdeal.Frame
import proofs.«166541_j35613868819191_1_alg».proof.Proof.Spec
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.StableHlo

/-- Column `0` of the edge list: the source node of every edge. -/
def srcIdx (x1 : (⟨S1600000x2, .i32⟩ : BufTy).Contents (Elt Ideal)) : (⟨S1600000, .i32⟩ : BufTy).Contents (Elt Ideal) :=
  shapeCast S1600000 (extractStridedSlice S1600000x1 ![0, 0] x1 slices_S1600000x2_S1600000x1_0_0) shapeCasts_S1600000x1_S1600000

/-- Column `1` of the edge list: the target node of every edge. -/
def tgtIdx (x1 : (⟨S1600000x2, .i32⟩ : BufTy).Contents (Elt Ideal)) : (⟨S1600000, .i32⟩ : BufTy).Contents (Elt Ideal) :=
  shapeCast S1600000 (extractStridedSlice S1600000x1 ![0, 1] x1 slices_S1600000x2_S1600000x1_0_1) shapeCasts_S1600000x1_S1600000

/-- An index vector with every negative entry raised by the number of nodes. -/
def wrapIdx (i : (⟨S1600000, .i32⟩ : BufTy).Contents (Elt Ideal)) : (⟨S1600000, .i32⟩ : BufTy).Contents (Elt Ideal) :=
  select (cmpi .slt i (broadcastInDim S1600000 ![] bcast_S_S1600000 (constantI S_ 32 0#32)))
    (addi i (broadcastInDim S1600000 ![] bcast_S_S1600000 (constantI S_ 32 100000#32))) i

/-- The rows of the node features at the wrapped indices. -/
def rowsAt (x0 : (⟨S100000x64, .f32⟩ : BufTy).Contents (Elt Ideal)) (i : (⟨S1600000, .i32⟩ : BufTy).Contents (Elt Ideal)) :
    (⟨S1600000x64, .f32⟩ : BufTy).Contents (Elt Ideal) :=
  Host.gather gather_S100000x64_S1600000x1_S1600000x64_1_0_n_n_0_1_164 x0
    (broadcastInDim S1600000x1 ![0] bcast_S1600000_S1600000x1_0 (wrapIdx i))

/-- The left half of a [64, 128] weight, transposed. -/
def wLeftT (x : (⟨S64x128, .f32⟩ : BufTy).Contents (Elt Ideal)) : (⟨S64x64, .f32⟩ : BufTy).Contents (Elt Ideal) :=
  transpose S64x64 [1, 0] (extractStridedSlice S64x64 ![0, 0] x slices_S64x128_S64x64_0_0) transposes_S64x64_S64x64_1_0

/-- The right half of a [64, 128] weight, transposed. -/
def wRightT (x : (⟨S64x128, .f32⟩ : BufTy).Contents (Elt Ideal)) : (⟨S64x64, .f32⟩ : BufTy).Contents (Elt Ideal) :=
  transpose S64x64 [1, 0] (extractStridedSlice S64x64 ![0, 64] x slices_S64x128_S64x64_0_64) transposes_S64x64_S64x64_1_0

/-- A [64] vector re-laid as a [1, 64] row. -/
def rowOf (b : (⟨S64, .f32⟩ : BufTy).Contents (Elt Ideal)) : (⟨S1x64, .f32⟩ : BufTy).Contents (Elt Ideal) :=
  shapeCast S1x64 b shapeCasts_S64_S1x64

/-- Per-edge rows summed into their target nodes. -/
def segSum (i : (⟨S1600000, .i32⟩ : BufTy).Contents (Elt Ideal)) (u : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 i) u

/-- The number of edges into each node, as a column. -/
def segCount (i : (⟨S1600000, .i32⟩ : BufTy).Contents (Elt Ideal)) : (⟨S100000x1, .f32⟩ : BufTy).Contents (Elt Ideal) :=
  broadcastInDim S100000x1 ![0] bcast_S100000_S100000x1_0
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 i)
      (broadcastInDim S1600000 ![] bcast_S_S1600000 (constant (F := Ideal) S_ .f32 0x3F800000#32)))

variable (W : Valuation τ sig (Elt Ideal))

/-! ## After the first stretch of host operations -/

theorem src_rows : after (hostOps0 (F := Ideal)) W (Proc.devRef .tc main_v10)
    = rowsAt (W (Proc.devRef .tc main_arg0)) (srcIdx (W (Proc.devRef .tc main_arg1))) := by
  unfold rowsAt wrapIdx srcIdx
  after_results_simp
  rfl

theorem tgt_rows : after (hostOps0 (F := Ideal)) W (Proc.devRef .tc main_v17)
    = rowsAt (W (Proc.devRef .tc main_arg0)) (tgtIdx (W (Proc.devRef .tc main_arg1))) := by
  unfold rowsAt wrapIdx tgtIdx
  after_results_simp
  rfl

theorem tgt_idx : after (hostOps0 (F := Ideal)) W (Proc.devRef .tc main_v3) = tgtIdx (W (Proc.devRef .tc main_arg1)) := by
  unfold tgtIdx
  after_results_simp
  rfl

theorem msg_wl : after (hostOps0 (F := Ideal)) W (Proc.devRef .tc main_v20) = wLeftT (W (Proc.devRef .tc main_arg2)) := by
  unfold wLeftT
  after_results_simp

theorem msg_wr : after (hostOps0 (F := Ideal)) W (Proc.devRef .tc main_v21) = wRightT (W (Proc.devRef .tc main_arg2)) := by
  unfold wRightT
  after_results_simp

theorem msg_b : after (hostOps0 (F := Ideal)) W (Proc.devRef .tc main_v22) = rowOf (W (Proc.devRef .tc main_arg3)) := by
  unfold rowOf
  after_results_simp
  rfl

theorem keep0_arg0 : after (hostOps0 (F := Ideal)) W (Proc.devRef .tc main_arg0) = W (Proc.devRef .tc main_arg0) := by
  after_results_simp
theorem keep0_arg4 : after (hostOps0 (F := Ideal)) W (Proc.devRef .tc main_arg4) = W (Proc.devRef .tc main_arg4) := by
  after_results_simp
theorem keep0_arg5 : after (hostOps0 (F := Ideal)) W (Proc.devRef .tc main_arg5) = W (Proc.devRef .tc main_arg5) := by
  after_results_simp
theorem keep0_arg6 : after (hostOps0 (F := Ideal)) W (Proc.devRef .tc main_arg6) = W (Proc.devRef .tc main_arg6) := by
  after_results_simp
theorem keep0_arg7 : after (hostOps0 (F := Ideal)) W (Proc.devRef .tc main_arg7) = W (Proc.devRef .tc main_arg7) := by
  after_results_simp

/-! ## After the second stretch -/

theorem msg_sum : after (hostOps1 (F := Ideal)) W (Proc.devRef .tc main_v26)
    = segSum (W (Proc.devRef .tc main_v3)) (W (Proc.devRef .tc main_v23)) := by
  unfold segSum
  after_results_simp

theorem edge_count : after (hostOps1 (F := Ideal)) W (Proc.devRef .tc main_v31) = segCount (W (Proc.devRef .tc main_v3)) := by
  unfold segCount
  after_results_simp

theorem upd_wl : after (hostOps1 (F := Ideal)) W (Proc.devRef .tc main_v34) = wLeftT (W (Proc.devRef .tc main_arg4)) := by
  unfold wLeftT
  after_results_simp

theorem upd_wr : after (hostOps1 (F := Ideal)) W (Proc.devRef .tc main_v35) = wRightT (W (Proc.devRef .tc main_arg4)) := by
  unfold wRightT
  after_results_simp

theorem upd_b : after (hostOps1 (F := Ideal)) W (Proc.devRef .tc main_v36) = rowOf (W (Proc.devRef .tc main_arg5)) := by
  unfold rowOf
  after_results_simp
  rfl

theorem upd_g : after (hostOps1 (F := Ideal)) W (Proc.devRef .tc main_v37) = rowOf (W (Proc.devRef .tc main_arg6)) := by
  unfold rowOf
  after_results_simp
  rfl

theorem upd_be : after (hostOps1 (F := Ideal)) W (Proc.devRef .tc main_v38) = rowOf (W (Proc.devRef .tc main_arg7)) := by
  unfold rowOf
  after_results_simp
  rfl

theorem keep1_arg0 : after (hostOps1 (F := Ideal)) W (Proc.devRef .tc main_arg0) = W (Proc.devRef .tc main_arg0) := by
  after_results_simp

/-! ## The program's result as one function of its arguments -/

/-- The layer's output: the update of every node from its features, the sum of the messages along its incoming
    edges and their number. -/
def kernelOut (x0 : (⟨S100000x64, .f32⟩ : BufTy).Contents (Elt Ideal)) (x1 : (⟨S1600000x2, .i32⟩ : BufTy).Contents (Elt Ideal))
    (x2 : (⟨S64x128, .f32⟩ : BufTy).Contents (Elt Ideal)) (x3 : (⟨S64, .f32⟩ : BufTy).Contents (Elt Ideal))
    (x4 : (⟨S64x128, .f32⟩ : BufTy).Contents (Elt Ideal)) (x5 x6 x7 : (⟨S64, .f32⟩ : BufTy).Contents (Elt Ideal)) :
    (⟨S100000x64, .f32⟩ : BufTy).Contents (Elt Ideal) :=
  Cert.Spec.updArr x0
    (segSum (tgtIdx x1) (Cert.Spec.msgArr (rowsAt x0 (srcIdx x1)) (rowsAt x0 (tgtIdx x1)) (wLeftT x2) (wRightT x2) (rowOf x3)))
    (segCount (tgtIdx x1)) (wLeftT x4) (wRightT x4) (rowOf x5) (rowOf x6) (rowOf x7)

end Cert.KernelIdeal.HostValue

end
-- ==== Proof.KernelValue.lean ====
/-
  The kernel program's result array as one function of its eight arguments.

  The result buffer ends at what the update kernel's write-backs leave; that array is the update of the arrays
  the update kernel finds in its windows; those are what the second stretch of host operations computes from the
  message kernel's output and from the arguments; and the message kernel's output is the message array of what the
  first stretch computes from the arguments. Each link is read off the buffer contents at the boundary between two
  stretches.
-/
import proofs.«166541_j35613868819191_1_alg».proof.Proof.HostValue

set_option maxRecDepth 16384

noncomputable section

namespace Cert.KernelIdeal.Whole

open Cert.KernelIdeal Cert.KernelIdeal.Gen Cert.KernelIdeal.HostValue
open Idealize.ShloMosaic Idealize.ShloMosaic.TcCoe Idealize.ShloMosaic.StableHlo Idealize.SL.Sem

variable (m : (ℓ : Loc nD τ sig) → Buf (Elt Ideal) ℓ) (ρ : Dev nD → PrngReg)

/-- The result buffer's final contents are the layer's output of the launch contents of the arguments, given the
    two kernels' arrays as functions of what their windows find. -/
theorem result_eq_of
    (hmsg : ∀ (V : (c : Dev nD) → (b : Ref sig .tc) → Buf (Elt Ideal) ((c : Thread nD τ).loc b)) (c : Dev nD),
      (dat0 (F := Ideal) V c).arrAt 5 cfg0.N
        = Cert.Spec.msgArr (V c main_v10) (V c main_v17) (V c main_v20) (V c main_v21) (V c main_v22))
    (hupd : ∀ (V : (c : Dev nD) → (b : Ref sig .tc) → Buf (Elt Ideal) ((c : Thread nD τ).loc b)) (c : Dev nD),
      (dat1 (F := Ideal) V c).arrAt 8 cfg1.N
        = Cert.Spec.updArr (V c main_arg0) (V c main_v26) (V c main_v31) (V c main_v34) (V c main_v35) (V c main_v36) (V c main_v37) (V c main_v38))
    (c : Dev nD) :
    W4 m ρ c (Proc.devRef .tc main_v39)
      = kernelOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  -- what the message kernel's windows find
  have e10 : V1 m ρ c main_v10 = rowsAt (m ((c.tc : Thread nD τ).loc main_arg0)) (srcIdx (m ((c.tc : Thread nD τ).loc main_arg1))) :=
    src_rows (W0 m ρ c)
  have e17 : V1 m ρ c main_v17 = rowsAt (m ((c.tc : Thread nD τ).loc main_arg0)) (tgtIdx (m ((c.tc : Thread nD τ).loc main_arg1))) :=
    tgt_rows (W0 m ρ c)
  have e20 : V1 m ρ c main_v20 = wLeftT (m ((c.tc : Thread nD τ).loc main_arg2)) := msg_wl (W0 m ρ c)
  have e21 : V1 m ρ c main_v21 = wRightT (m ((c.tc : Thread nD τ).loc main_arg2)) := msg_wr (W0 m ρ c)
  have e22 : V1 m ρ c main_v22 = rowOf (m ((c.tc : Thread nD τ).loc main_arg3)) := msg_b (W0 m ρ c)
  -- the buffers the second stretch reads, as the message kernel leaves them
  have g23 : W2 m ρ c (Proc.devRef .tc main_v23)
      = Cert.Spec.msgArr (rowsAt (m ((c.tc : Thread nD τ).loc main_arg0)) (srcIdx (m ((c.tc : Thread nD τ).loc main_arg1))))
          (rowsAt (m ((c.tc : Thread nD τ).loc main_arg0)) (tgtIdx (m ((c.tc : Thread nD τ).loc main_arg1))))
          (wLeftT (m ((c.tc : Thread nD τ).loc main_arg2))) (wRightT (m ((c.tc : Thread nD τ).loc main_arg2)))
          (rowOf (m ((c.tc : Thread nD τ).loc main_arg3))) :=
    (W2_arr m ρ c 5).trans ((hmsg (V1 m ρ) c).trans (by rw [e10, e17, e20, e21, e22]))
  have g3 : W2 m ρ c (Proc.devRef .tc main_v3) = tgtIdx (m ((c.tc : Thread nD τ).loc main_arg1)) :=
    (W2_of_ne m ρ c main_v3 (by decide)).trans (tgt_idx (W0 m ρ c))
  have g0 : W2 m ρ c (Proc.devRef .tc main_arg0) = m ((c.tc : Thread nD τ).loc main_arg0) :=
    (W2_of_ne m ρ c main_arg0 (by decide)).trans (keep0_arg0 (W0 m ρ c))
  have g4 : W2 m ρ c (Proc.devRef .tc main_arg4) = m ((c.tc : Thread nD τ).loc main_arg4) :=
    (W2_of_ne m ρ c main_arg4 (by decide)).trans (keep0_arg4 (W0 m ρ c))
  have g5 : W2 m ρ c (Proc.devRef .tc main_arg5) = m ((c.tc : Thread nD τ).loc main_arg5) :=
    (W2_of_ne m ρ c main_arg5 (by decide)).trans (keep0_arg5 (W0 m ρ c))
  have g6 : W2 m ρ c (Proc.devRef .tc main_arg6) = m ((c.tc : Thread nD τ).loc main_arg6) :=
    (W2_of_ne m ρ c main_arg6 (by decide)).trans (keep0_arg6 (W0 m ρ c))
  have g7 : W2 m ρ c (Proc.devRef .tc main_arg7) = m ((c.tc : Thread nD τ).loc main_arg7) :=
    (W2_of_ne m ρ c main_arg7 (by decide)).trans (keep0_arg7 (W0 m ρ c))
  -- what the update kernel's windows find
  have f0 : V3 m ρ c main_arg0 = m ((c.tc : Thread nD τ).loc main_arg0) := (keep1_arg0 (W2 m ρ c)).trans g0
  have f26 : V3 m ρ c main_v26 = segSum (tgtIdx (m ((c.tc : Thread nD τ).loc main_arg1)))
      (Cert.Spec.msgArr (rowsAt (m ((c.tc : Thread nD τ).loc main_arg0)) (srcIdx (m ((c.tc : Thread nD τ).loc main_arg1))))
          (rowsAt (m ((c.tc : Thread nD τ).loc main_arg0)) (tgtIdx (m ((c.tc : Thread nD τ).loc main_arg1))))
          (wLeftT (m ((c.tc : Thread nD τ).loc main_arg2))) (wRightT (m ((c.tc : Thread nD τ).loc main_arg2)))
          (rowOf (m ((c.tc : Thread nD τ).loc main_arg3)))) :=
    (msg_sum (W2 m ρ c)).trans (by rw [g3, g23])
  have f31 : V3 m ρ c main_v31 = segCount (tgtIdx (m ((c.tc : Thread nD τ).loc main_arg1))) :=
    (edge_count (W2 m ρ c)).trans (by rw [g3])
  have f34 : V3 m ρ c main_v34 = wLeftT (m ((c.tc : Thread nD τ).loc main_arg4)) := (upd_wl (W2 m ρ c)).trans (by rw [g4])
  have f35 : V3 m ρ c main_v35 = wRightT (m ((c.tc : Thread nD τ).loc main_arg4)) := (upd_wr (W2 m ρ c)).trans (by rw [g4])
  have f36 : V3 m ρ c main_v36 = rowOf (m ((c.tc : Thread nD τ).loc main_arg5)) := (upd_b (W2 m ρ c)).trans (by rw [g5])
  have f37 : V3 m ρ c main_v37 = rowOf (m ((c.tc : Thread nD τ).loc main_arg6)) := (upd_g (W2 m ρ c)).trans (by rw [g6])
  have f38 : V3 m ρ c main_v38 = rowOf (m ((c.tc : Thread nD τ).loc main_arg7)) := (upd_be (W2 m ρ c)).trans (by rw [g7])
  exact (W4_arr m ρ c 8).trans ((hupd (V3 m ρ) c).trans (by rw [f0, f26, f31, f34, f35, f36, f37, f38]; rfl))

end Cert.KernelIdeal.Whole

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.MsgBlock.lean ====
/-
  One block of the message kernel, entry by entry.

  At a grid point the body holds a block of 6400 gathered source rows, the matching block of 6400 gathered target
  rows, the two 64-by-64 weight matrices and the bias row. It multiplies each block by its weight matrix (a change
  of float format is the identity on the extended reals, and a cast to the same shape changes nothing), adds the two
  products, adds the bias row spread over the 6400 rows, and takes the larger of that and zero. So entry (p, q) of
  what it stores is the message entry of the specification, computed from row p of the two blocks:
  the larger of zero and  sum_k xs(p,k) ws(k,q) + sum_k xt(p,k) wt(k,q) + b(0,q).
  The body stores through the whole rectangle of its output buffer and loads through the whole rectangles of its
  inputs, so the buffer it leaves is that function of the five blocks.
-/
import proofs.«166541_j35613868819191_1_alg».proof.Proof.Gen.KernelIdeal.Frame
import proofs.«166541_j35613868819191_1_alg».proof.Proof.Spec
import proofs.«166541_j35613868819191_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MsgValue

open Cert.KernelIdeal Cert.KernelIdeal.Gen Idealize.ShloMosaic Idealize.ShloMosaic.ValueIdx
open scoped BigOperators

/-- A block of rows times a weight matrix, both passed through a cast to their own shape and a change of float
    format, into the zero accumulator: entry (p, q) is the sum over the 64 features of row p times column q. -/
theorem product_at (x : Vec Ideal S6400x64 .f32) (w : Vec Ideal S64x64 .f32)
    (hx : S6400x64.ShapeCasts S6400x64) (hw : S64x64.ShapeCasts S64x64) (hb : FTy.bits .bf16 < FTy.bits .f32)
    (p : Fin 6400) (q : Fin 64) :
    FloatOps.matmul dot_S6400x64_S64x64_S6400x64_1_0_0_1_n_n none
        (truncf .bf16 (shapeCast S6400x64 x hx) hb : FVec Ideal S6400x64 .bf16)
        (truncf .bf16 (shapeCast S64x64 w hw) hb : FVec Ideal S64x64 .bf16)
        (constant (F := Ideal) S6400x64 .f32 0x00000000#32) (ix2 p q)
      = ∑ k : Fin 64, x (ix2 p k) * w (ix2 k q) := by
  rw [shapeCast_self, shapeCast_self]
  exact Cert.LibPlainMatmul.matmul_zero_plain _ _ _ p q

/-- The bias row, cast to its own shape and spread over the 6400 rows, reads the bias entry of the column. -/
theorem bias_at (b : Vec Ideal S1x64 .f32) (hc : S1x64.ShapeCasts S1x64) (hs : S1x64.Broadcasts S6400x64)
    (p : Fin 6400) (q : Fin 64) :
    broadcastTo S6400x64 (shapeCast S1x64 b hc) hs (ix2 p q) = b (ix2 (0 : Fin 1) q) := by
  rw [shapeCast_self]
  exact broadcastTo_1b_ab_apply b hs p q

/-- THE BODY'S ARITHMETIC AT AN ENTRY: entry (p, q) of the stored block is the message entry computed from row p of
    the source and target blocks, the two weight matrices and the bias row. -/
theorem payload_at (x0 x1 : Vec Ideal S6400x64 .f32) (x2 x3 : Vec Ideal S64x64 .f32) (x4 : Vec Ideal S1x64 .f32)
    (p : Fin 6400) (q : Fin 64) :
    k0_pay1 x0 x1 x2 x3 x4 (ix2 p q) = Cert.Spec.msgAt x0 x1 x2 x3 x4 p q := by
  unfold k0_pay1 Cert.Spec.msgAt
  refine (maximumf_apply _ _ (ix2 p q)).trans ?_
  refine congrArg₂ max ?_ rfl
  refine (addf_apply _ _ (ix2 p q)).trans ?_
  refine congrArg₂ (· + ·) ?_ (bias_at x4 _ _ p q)
  refine (addf_apply _ _ (ix2 p q)).trans ?_
  exact congrArg₂ (· + ·) (product_at x0 x2 _ _ _ p q) (product_at x1 x3 _ _ _ p q)

/-- The zero offsets of a whole-buffer rectangle, as the constant function. -/
theorem zero_offsets : (![0, 0] : Fin 2 → Nat) = fun _ => 0 := funext fun a => by fin_cases a <;> rfl

/-- THE BUFFER THE BODY LEAVES: its one store goes through the whole rectangle and its loads read whole blocks, so
    the output block is the message entries of the five input blocks, row by row. -/
theorem block_eq (x0 x1 : Vec Ideal S6400x64 .f32) (x2 x3 : Vec Ideal S64x64 .f32) (x4 : Vec Ideal S1x64 .f32) :
    out0_5 x0 x1 x2 x3 x4 = fun j => Cert.Spec.msgAt x0 x1 x2 x3 x4 (j 0) (j 1) := by
  unfold out0_5
  rw [View.canon_unit_zero zero_offsets]
  simp only [View.ld_unit_zero (S := S6400x64) zero_offsets, View.ld_unit_zero (S := S64x64) zero_offsets,
    View.ld_unit_zero (S := S1x64) zero_offsets]
  funext j
  obtain ⟨p, q, rfl⟩ : ∃ (p : Fin 6400) (q : Fin 64), j = ix2 p q := ⟨j 0, j 1, eq_ix2 j⟩
  exact payload_at x0 x1 x2 x3 x4 p q

end Cert.KernelIdeal.MsgValue

end
-- ==== Proof.MsgArray.lean ====
/-
  The message array after the first kernel's run, as one function of the arrays the kernel finds.

  The grid has 250 points; point t works on rows 6400 t … 6400 t + 6399 of the two [1600000, 64] arrays of gathered
  rows and of the output, and at every point on the whole of the two weight matrices and of the bias row. So the rows
  of the blocks the body reads at point t are rows of the arrays: row p of a block of gathered rows is row 6400 t + p
  of its array, and the weight and bias blocks are their arrays. A message entry depends only on its own row of the
  two gathered arrays, on one column of each weight matrix and on one bias entry; hence what point t writes back is
  block t of the array of all messages. Row r of the output lies in the block of point r / 6400, every point writes
  its block back, and so the output array ends holding the messages.
-/
import proofs.«166541_j35613868819191_1_alg».proof.Proof.Gen.KernelIdeal.Frame
import proofs.«166541_j35613868819191_1_alg».proof.Proof.Spec
import proofs.«166541_j35613868819191_1_alg».proof.Proof.MsgBlock
import Idealize.ShloMosaic.Lib.ValueIdx
import Idealize.ShloMosaic.Lib.Pipeline.Value

noncomputable section

namespace Cert.KernelIdeal.MsgValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- A message entry depends only on row p of the two arrays of gathered rows, on column q of the two weight matrices
    and on entry q of the bias row: two sets of arrays that agree there give the same entry. -/
theorem msgAt_congr {a a' : ℕ} (xs xt : Cert.Spec.Mat a 64) (xs' xt' : Cert.Spec.Mat a' 64)
    (ws wt ws' wt' : Cert.Spec.Mat 64 64) (b b' : Cert.Spec.Mat 1 64) (p : Fin a) (p' : Fin a') (q : Fin 64)
    (hs : ∀ k : Fin 64, xs (ix2 p k) = xs' (ix2 p' k)) (ht : ∀ k : Fin 64, xt (ix2 p k) = xt' (ix2 p' k))
    (hws : ∀ k : Fin 64, ws (ix2 k q) = ws' (ix2 k q)) (hwt : ∀ k : Fin 64, wt (ix2 k q) = wt' (ix2 k q))
    (hb : b (ix2 (0 : Fin 1) q) = b' (ix2 (0 : Fin 1) q)) :
    Cert.Spec.msgAt xs xt ws wt b p q = Cert.Spec.msgAt xs' xt' ws' wt' b' p' q := by
  unfold Cert.Spec.msgAt
  rw [hb]
  simp only [hs, ht, hws, hwt]

variable (V : (c : Dev nD) → (b : Ref sig .tc) → Buf (Elt Ideal) ((c : Thread nD τ).loc b))

/-! ## Where the blocks sit -/

/-- The index maps over the grid, decided once: the blocks of gathered rows and the output block are block t along
    the rows and the only block along the columns; the weight and bias blocks are block (0, 0) at every point. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block of gathered source rows at point t is row 6400 t + p of the array. -/
theorem source_rows (c : Dev nD) (t : Fin cfg0.N) (p : Fin 6400) (k : Fin 64) (r : Fin 1600000)
    (hr : r.val = t.val * 6400 + p.val) :
    (iblk0 V c 0 t : Vec Ideal S6400x64 .f32) (ix2 p k) = (V c main_v10 : Cert.Spec.Mat 1600000 64) (ix2 r k) := by
  obtain ⟨e0, e1, -⟩ := block_indices t
  show V c main_v10 (((cfg0.win 0).blk t).view.emb (ix2 p k)) = V c main_v10 (ix2 r k)
  refine congrArg _ (funext fun a => Fin.ext ?_)
  match a with
  | ⟨0, _⟩ => show win0_0.index t (0 : Fin 2) * 6400 + 1 * p.val = r.val; omega
  | ⟨1, _⟩ => show win0_0.index t (1 : Fin 2) * 64 + 1 * k.val = k.val; omega

/-- Row p of the block of gathered target rows at point t is row 6400 t + p of the array. -/
theorem target_rows (c : Dev nD) (t : Fin cfg0.N) (p : Fin 6400) (k : Fin 64) (r : Fin 1600000)
    (hr : r.val = t.val * 6400 + p.val) :
    (iblk0 V c 1 t : Vec Ideal S6400x64 .f32) (ix2 p k) = (V c main_v17 : Cert.Spec.Mat 1600000 64) (ix2 r k) := by
  obtain ⟨-, -, e0, e1, -⟩ := block_indices t
  show V c main_v17 (((cfg0.win 1).blk t).view.emb (ix2 p k)) = V c main_v17 (ix2 r k)
  refine congrArg _ (funext fun a => Fin.ext ?_)
  match a with
  | ⟨0, _⟩ => show win0_1.index t (0 : Fin 2) * 6400 + 1 * p.val = r.val; omega
  | ⟨1, _⟩ => show win0_1.index t (1 : Fin 2) * 64 + 1 * k.val = k.val; omega

/-- The block of the source weight matrix at any point is the matrix. -/
theorem source_weights (c : Dev nD) (t : Fin cfg0.N) (k q : Fin 64) :
    (iblk0 V c 2 t : Vec Ideal S64x64 .f32) (ix2 k q) = (V c main_v20 : Cert.Spec.Mat 64 64) (ix2 k q) := by
  obtain ⟨-, -, -, -, e0, e1, -⟩ := block_indices t
  show V c main_v20 (((cfg0.win 2).blk t).view.emb (ix2 k q)) = V c main_v20 (ix2 k q)
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- The block of the target weight matrix at any point is the matrix. -/
theorem target_weights (c : Dev nD) (t : Fin cfg0.N) (k q : Fin 64) :
    (iblk0 V c 3 t : Vec Ideal S64x64 .f32) (ix2 k q) = (V c main_v21 : Cert.Spec.Mat 64 64) (ix2 k q) := by
  obtain ⟨-, -, -, -, -, -, e0, e1, -⟩ := block_indices t
  show V c main_v21 (((cfg0.win 3).blk t).view.emb (ix2 k q)) = V c main_v21 (ix2 k q)
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * q.val = q.val; omega

/-- The block of the bias row at any point is the row. -/
theorem bias_row (c : Dev nD) (t : Fin cfg0.N) (q : Fin 64) :
    (iblk0 V c 4 t : Vec Ideal S1x64 .f32) (ix2 (0 : Fin 1) q) = (V c main_v22 : Cert.Spec.Mat 1 64) (ix2 (0 : Fin 1) q) := by
  obtain ⟨-, -, -, -, -, -, -, -, e0, e1, -⟩ := block_indices t
  show V c main_v22 (((cfg0.win 4).blk t).view.emb (ix2 (0 : Fin 1) q)) = V c main_v22 (ix2 (0 : Fin 1) q)
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 64 + 1 * q.val = q.val; omega

/-- Entry (p, q) of the output block at point t sits at row 6400 t + p, column q of the output array. -/
theorem output_rows (t : Fin cfg0.N) (p : Fin 6400) (q : Fin 64) (r : Fin 1600000)
    (hr : r.val = t.val * 6400 + p.val) :
    ((cfg0.win 5).blk t).view.emb (ix2 p q) = (ix2 r q : S1600000x64.Idx) := by
  obtain ⟨-, -, -, -, -, -, -, -, -, -, e0, e1⟩ := block_indices t
  refine funext fun a => Fin.ext ?_
  match a with
  | ⟨0, _⟩ => show win0_5.index t (0 : Fin 2) * 6400 + 1 * p.val = r.val; omega
  | ⟨1, _⟩ => show win0_5.index t (1 : Fin 2) * 64 + 1 * q.val = q.val; omega

/-! ## What a point writes back -/

/-- WHAT POINT t WRITES BACK is block t of the array of all messages of the arrays the kernel finds. -/
theorem flushed_eq (c : Dev nD) (t : Fin cfg0.N) :
    (dat0 (F := Ideal) V c).flushed 5 t
      = ((cfg0.win 5).blk t).view.read (Elt Ideal)
          (Cert.Spec.msgArr (V c main_v10) (V c main_v17) (V c main_v20) (V c main_v21) (V c main_v22)) := by
  show (cfg0.win 5).cut (grid0.coords t) ((dat0 (F := Ideal) V c).after 5 t) = _
  rw [after0_5, block_eq]
  funext j
  obtain ⟨p, q, rfl⟩ : ∃ (p : Fin 6400) (q : Fin 64), j = ix2 p q := ⟨j 0, j 1, eq_ix2 j⟩
  have ht : t.val < 250 := lt_of_lt_of_eq t.isLt N_0
  obtain ⟨r, hr⟩ : ∃ r : Fin 1600000, r.val = t.val * 6400 + p.val :=
    ⟨⟨t.val * 6400 + p.val, by have := p.isLt; omega⟩, rfl⟩
  show Cert.Spec.msgAt (iblk0 V c 0 t) (iblk0 V c 1 t) (iblk0 V c 2 t) (iblk0 V c 3 t) (iblk0 V c 4 t) p q
    = Cert.Spec.msgArr (V c main_v10) (V c main_v17) (V c main_v20) (V c main_v21) (V c main_v22)
        (((cfg0.win 5).blk t).view.emb (ix2 p q))
  rw [output_rows t p q r hr]
  exact msgAt_congr (a := 6400) (a' := 1600000) (iblk0 V c 0 t) (iblk0 V c 1 t) (V c main_v10) (V c main_v17)
    (iblk0 V c 2 t) (iblk0 V c 3 t) (V c main_v20) (V c main_v21) (iblk0 V c 4 t) (V c main_v22) p r q
    (fun k => source_rows V c t p k r hr) (fun k => target_rows V c t p k r hr)
    (fun k => source_weights V c t k q) (fun k => target_weights V c t k q) (bias_row V c t q)

/-! ## The blocks cover the array -/

/-- A row and column of the output array lie in point t's block iff each coordinate is in the block's range. -/
theorem mem_block (t : Fin cfg0.N) (i : S1600000x64.Idx) :
    i ∈ ((cfg0.win 5).blk t).view.set ↔ ∀ a : Fin 2, win0_5.index t a * S6400x64.size a ≤ (i a).val
      ∧ (i a).val < win0_5.index t a * S6400x64.size a + S6400x64.size a := by
  show i ∈ ((View.whole main_v23).slice (win0_5.rect t)).set ↔ _
  rw [View.set_slice_whole, Rect.mem_set_unit]
  exact Iff.rfl

/-- Row r of the output array lies in the block of point r / 6400, which writes it back. -/
theorem covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 250 := N_0
  obtain ⟨t, ht⟩ : ∃ t : Fin cfg0.N, t.val = (i 0).val / 6400 := ⟨⟨(i 0).val / 6400, by rw [hN]; omega⟩, rfl⟩
  obtain ⟨-, -, -, -, -, -, -, -, -, -, e0, e1⟩ := block_indices t
  refine ⟨t, flush0_5 t, ?_⟩
  rw [mem_block]
  intro a
  match a with
  | ⟨0, _⟩ =>
    show win0_5.index t (0 : Fin 2) * 6400 ≤ (i 0).val ∧ (i 0).val < win0_5.index t (0 : Fin 2) * 6400 + 6400
    omega
  | ⟨1, _⟩ =>
    show win0_5.index t (1 : Fin 2) * 64 ≤ (i 1).val ∧ (i 1).val < win0_5.index t (1 : Fin 2) * 64 + 64
    omega

/-! ## The array after the run -/

/-- THE MESSAGE ARRAY after the first kernel's run is the array of all messages of the arrays the kernel finds,
    whatever those are. -/
theorem msg_final (c : Dev nD) :
    (Gen.dat0 (F := Ideal) V c).arrAt 5 cfg0.N
      = Cert.Spec.msgArr (V c main_v10) (V c main_v17) (V c main_v20) (V c main_v21) (V c main_v22) :=
  (dat0 (F := Ideal) V c).arrAt_eq_of_cover 5
    (Cert.Spec.msgArr (V c main_v10) (V c main_v17) (V c main_v20) (V c main_v21) (V c main_v22))
    (fun t _ => flushed_eq V c t) covered

end Cert.KernelIdeal.MsgValue

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.UpdBlock.lean ====
/-
  The body of the node-update kernel, read entry by entry on one block of 5000 rows.

  The body takes a block `x` of node features, the matching block `ms` of summed messages and the matching
  column `cnt` of incoming-edge counts, with the two 64-by-64 weight arrays, the bias row and the scale and
  shift rows. Row `p` of its result depends on row `p` of `x`, `ms` and `cnt` only:
  * the hidden row `h` is `relu (x p · wx + (ms p / max (cnt p) 1) · wm + b) + x p` — two rows-by-columns
    products into a zero accumulator, a bias row repeated down the block, a maximum with zero, and the skip;
  * its mean is the sum of the 64 entries of `h`, kept as a column, divided by the word for 64;
  * its variance is the mean, in the same sense, of the squared deviations from that mean;
  * the stored entry is `(h q - mean) · (variance + ε)^(-1/2) · γ q + β q`.
  Changes of float format are the identity over the extended reals, and a shape cast to the same shape is the
  identity, so each step read at `(p, q)` is the corresponding step of the specification.
-/
import proofs.«166541_j35613868819191_1_alg».proof.Proof.Gen.KernelIdeal.Frame
import proofs.«166541_j35613868819191_1_alg».proof.Proof.Spec
import proofs.«166541_j35613868819191_1_alg».proof.Proof.LibPlainMatmul
import proofs.«166541_j35613868819191_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.UpdValue

open Cert.KernelIdeal Cert.KernelIdeal.Gen Idealize.ShloMosaic Idealize.ShloMosaic.ValueIdx
open scoped BigOperators

/-! ## The two products -/

/-- A block of 5000 rows times a 64-by-64 weight array, both passed through a change of float format (the
    identity here) and the weights through a cast to their own shape, into the zero accumulator: at `(p, q)`
    the sum over `k` of row `p` of the block against column `q` of the weights. -/
theorem product_at (l : FVec Ideal S5000x64 .f32) (r : Vec Ideal S64x64 .f32) (p : Fin 5000) (q : Fin 64) :
    matmul dot_S5000x64_S64x64_S5000x64_1_0_0_1_n_n none (truncf .bf16 l bitsLt_bf16_f32)
        (truncf .bf16 (shapeCast S64x64 r shapeCasts_S64x64_S64x64) bitsLt_bf16_f32)
        (constant (F := Ideal) S5000x64 .f32 0x00000000#32) (ix2 p q)
      = ∑ k : Fin 64, l (ix2 p k) * r (ix2 k q) := by
  refine (Cert.LibPlainMatmul.matmul_zero_plain _ _ _ p q).trans ?_
  refine Finset.sum_congr rfl fun k _ => ?_
  rw [shapeCast_self]
  rfl

/-! ## The hidden row -/

/-- The scaled messages: the block of summed messages divided, row by row, by the larger of the row's count
    and one. At `(p, k)` it reads row `p` of both. -/
theorem scaled_at (x1 : Vec Ideal S5000x64 .f32) (x2 : Vec Ideal S5000x1 .f32) (p : Fin 5000) (k : Fin 64) :
    divf (shapeCast S5000x64 x1 shapeCasts_S5000x64_S5000x64)
        (broadcastTo S5000x64 (maximumf (shapeCast S5000x1 x2 shapeCasts_S5000x1_S5000x1)
          (broadcast S5000x1 (Scalar.ofBits (F := Ideal) .f32 0x3F800000#32))) broadcasts_S5000x1_S5000x64) (ix2 p k)
      = Ideal.div (x1 (ix2 p k)) (max (x2 (ix2 p (0 : Fin 1))) (Ideal.ofBits .f32 0x3F800000#32)) := by
  rw [divf_apply, shapeCast_self, Cert.LibKeepdims.broadcastTo_a1_ab_apply, maximumf_apply, shapeCast_self]
  rfl

/-- Entry `(p, q)` of the hidden row the body forms: the specification's. -/
theorem hid_at (x0 x1 : Vec Ideal S5000x64 .f32) (x2 : Vec Ideal S5000x1 .f32) (x3 x4 : Vec Ideal S64x64 .f32)
    (x5 : Vec Ideal S1x64 .f32) (p : Fin 5000) (q : Fin 64) :
    k1_pay2 x0 x1 x2 x3 x4 x5 (ix2 p q) = Cert.Spec.hidAt x0 x1 x2 x3 x4 x5 p q := by
  unfold k1_pay2 Cert.Spec.hidAt
  refine congrArg₂ (· + ·) (congrArg₂ max (congrArg₂ (· + ·) (congrArg₂ (· + ·) (product_at x0 x3 p q)
    ((product_at _ x4 p q).trans (Finset.sum_congr rfl fun k _ => congrArg (· * x4 (ix2 k q)) (scaled_at x1 x2 p k))))
    ((broadcastTo_1b_ab_apply _ broadcasts_S1x64_S5000x64 p q).trans (congrFun (shapeCast_self x5 shapeCasts_S1x64_S1x64) _))) rfl) rfl

/-! ## The mean and the variance of a row, kept as columns -/

/-- The sum of a block along its rows, kept as a column and divided by the word for 64: at `(p, u)` the mean of
    the 64 entries of row `p`. -/
theorem mean_col_at (src : FVec Ideal S5000x64 .f32) (p : Fin 5000) (u : Fin 1) :
    divf (shapeCast S5000x1 (multiReduction .add [1] S5000 src 0x00000000#32 reduces_S5000x64_S5000 (.inl rfl) rfl)
        shapeCasts_S5000_S5000x1) (broadcast S5000x1 (Scalar.ofBits (F := Ideal) .f32 0x42800000#32)) (ix2 p u)
      = Cert.Spec.meanAt (fun k => src (ix2 p k)) := by
  unfold Cert.Spec.meanAt
  rw [divf_apply, Cert.LibKeepdims.shapeCast_a_a1_apply]
  exact congrArg₂ Ideal.div (Cert.LibKeepdims.multiReduction_add_row src _ reduces_S5000x64_S5000 (.inl rfl) rfl p) rfl

/-- The mean column of the hidden row. -/
theorem mean_at (x0 x1 : Vec Ideal S5000x64 .f32) (x2 : Vec Ideal S5000x1 .f32) (x3 x4 : Vec Ideal S64x64 .f32)
    (x5 : Vec Ideal S1x64 .f32) (p : Fin 5000) (u : Fin 1) :
    k1_pay3 x0 x1 x2 x3 x4 x5 (ix2 p u) = Cert.Spec.meanAt (fun k => Cert.Spec.hidAt x0 x1 x2 x3 x4 x5 p k) := by
  unfold k1_pay3
  exact (mean_col_at _ p u).trans (congrArg Cert.Spec.meanAt (funext fun k => hid_at x0 x1 x2 x3 x4 x5 p k))

/-- The mean column repeated along the row: at `(p, q)` still the mean of row `p`. -/
theorem mean_rep_at (x0 x1 : Vec Ideal S5000x64 .f32) (x2 : Vec Ideal S5000x1 .f32) (x3 x4 : Vec Ideal S64x64 .f32)
    (x5 : Vec Ideal S1x64 .f32) (p : Fin 5000) (q : Fin 64) :
    k1_pay5 x0 x1 x2 x3 x4 x5 (ix2 p q) = Cert.Spec.meanAt (fun k => Cert.Spec.hidAt x0 x1 x2 x3 x4 x5 p k) := by
  unfold k1_pay5
  exact (Cert.LibKeepdims.broadcastTo_a1_ab_apply _ broadcasts_S5000x1_S5000x64 p q).trans (mean_at x0 x1 x2 x3 x4 x5 p 0)

/-- The variance column: the mean of the squared deviations of the hidden row from its mean. -/
theorem var_at (x0 x1 : Vec Ideal S5000x64 .f32) (x2 : Vec Ideal S5000x1 .f32) (x3 x4 : Vec Ideal S64x64 .f32)
    (x5 : Vec Ideal S1x64 .f32) (p : Fin 5000) (u : Fin 1) :
    k1_pay4 x0 x1 x2 x3 x4 x5 (ix2 p u)
      = Cert.Spec.meanAt (fun k =>
          (Cert.Spec.hidAt x0 x1 x2 x3 x4 x5 p k - Cert.Spec.meanAt (fun k => Cert.Spec.hidAt x0 x1 x2 x3 x4 x5 p k))
          * (Cert.Spec.hidAt x0 x1 x2 x3 x4 x5 p k - Cert.Spec.meanAt (fun k => Cert.Spec.hidAt x0 x1 x2 x3 x4 x5 p k))) := by
  have dev : ∀ k : Fin 64,
      subf (k1_pay2 x0 x1 x2 x3 x4 x5) (broadcastTo S5000x64 (k1_pay3 x0 x1 x2 x3 x4 x5) broadcasts_S5000x1_S5000x64) (ix2 p k)
        = Cert.Spec.hidAt x0 x1 x2 x3 x4 x5 p k - Cert.Spec.meanAt (fun k => Cert.Spec.hidAt x0 x1 x2 x3 x4 x5 p k) := fun k =>
    congrArg₂ (· - ·) (hid_at x0 x1 x2 x3 x4 x5 p k)
      ((Cert.LibKeepdims.broadcastTo_a1_ab_apply _ broadcasts_S5000x1_S5000x64 p k).trans (mean_at x0 x1 x2 x3 x4 x5 p 0))
  unfold k1_pay4
  exact (mean_col_at _ p u).trans (congrArg Cert.Spec.meanAt (funext fun k => congrArg₂ (· * ·) (dev k) (dev k)))

/-! ## The stored entry -/

/-- The store's arithmetic on any row `h`, mean column `mu` repeated, variance column `v`, scale row `g` and shift
    row `be`: `(h - mu) · (v + ε)^(-1/2) · g + be`, the column read at `(p, 0)` and the two rows at `(0, q)`. -/
theorem store_at (h : FVec Ideal S5000x64 .f32) (v : FVec Ideal S5000x1 .f32) (mu : FVec Ideal S5000x64 .f32)
    (g be : Vec Ideal S1x64 .f32) (p : Fin 5000) (q : Fin 64) :
    k1_pay1 h v mu g be (ix2 p q)
      = ((h (ix2 p q) - mu (ix2 p q)) * Ideal.rsqrt (v (ix2 p (0 : Fin 1)) + Ideal.ofBits .f32 0x3727C5AC#32))
          * g (ix2 (0 : Fin 1) q) + be (ix2 (0 : Fin 1) q) := by
  unfold k1_pay1
  exact congrArg₂ (· + ·)
    (congrArg₂ (· * ·)
      (congrArg₂ (· * ·) rfl ((Cert.LibKeepdims.broadcastTo_a1_ab_apply _ broadcasts_S5000x1_S5000x64 p q).trans rfl))
      ((broadcastTo_1b_ab_apply _ broadcasts_S1x64_S5000x64 p q).trans (congrFun (shapeCast_self g shapeCasts_S1x64_S1x64) _)))
    ((broadcastTo_1b_ab_apply _ broadcasts_S1x64_S5000x64 p q).trans (congrFun (shapeCast_self be shapeCasts_S1x64_S1x64) _))

/-- Entry `(p, q)` of what the body stores: the specification's normalised update of row `p`. -/
theorem upd_at (x0 x1 : Vec Ideal S5000x64 .f32) (x2 : Vec Ideal S5000x1 .f32) (x3 x4 : Vec Ideal S64x64 .f32)
    (x5 x6 x7 : Vec Ideal S1x64 .f32) (p : Fin 5000) (q : Fin 64) :
    k1_pay1 (k1_pay2 x0 x1 x2 x3 x4 x5) (k1_pay4 x0 x1 x2 x3 x4 x5) (k1_pay5 x0 x1 x2 x3 x4 x5) x6 x7 (ix2 p q)
      = Cert.Spec.updAt x0 x1 x2 x3 x4 x5 x6 x7 p q := by
  rw [store_at, hid_at, mean_rep_at, var_at]
  rfl

/-! ## What the body leaves in the output's buffer -/

theorem zero_offsets : (![0, 0] : Fin 2 → Nat) = fun _ => 0 := funext fun a => by fin_cases a <;> rfl

/-- The body's one store, through the whole rectangle at zero offsets, of blocks loaded whole: the buffer holds the
    update of the blocks, entry by entry. -/
theorem block_eq (x0 x1 : Vec Ideal S5000x64 .f32) (x2 : Vec Ideal S5000x1 .f32) (x3 x4 : Vec Ideal S64x64 .f32)
    (x5 x6 x7 : Vec Ideal S1x64 .f32) :
    Gen.out1_8 (F := Ideal) x0 x1 x2 x3 x4 x5 x6 x7 = fun j => Cert.Spec.updAt x0 x1 x2 x3 x4 x5 x6 x7 (j 0) (j 1) := by
  unfold Gen.out1_8
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  funext j
  obtain ⟨p, q, rfl⟩ : ∃ (p : Fin 5000) (q : Fin 64), j = ix2 p q := ⟨j 0, j 1, eq_ix2 j⟩
  exact upd_at x0 x1 x2 x3 x4 x5 x6 x7 p q

end Cert.KernelIdeal.UpdValue

end
-- ==== Proof.UpdArray.lean ====
/-
  The updated node features after the second kernel's run, as one function of the arrays the kernel finds.

  The grid has 20 points; point t works on rows 5000 t … 5000 t + 4999 of the two [100000, 64] arrays (the node
  features and the summed messages), of the [100000, 1] column of incoming-edge counts and of the output, and at every
  point on the whole of the two weight matrices, of the bias row and of the scale and shift rows of the
  normalisation. So row p of a block of node rows at point t is row 5000 t + p of its array, and the small blocks are
  their arrays. An updated entry depends only on its own row of the features and of the summed messages, on its own
  count, and on the small arrays; hence what point t writes back is block t of the array of all updated features.
  Row r of the output lies in the block of point r / 5000, every point writes its block back, and so the output
  array ends holding the updated features.
-/
import proofs.«166541_j35613868819191_1_alg».proof.Proof.Gen.KernelIdeal.Frame
import proofs.«166541_j35613868819191_1_alg».proof.Proof.Spec
import proofs.«166541_j35613868819191_1_alg».proof.Proof.UpdBlock
import Idealize.ShloMosaic.Lib.ValueIdx
import Idealize.ShloMosaic.Lib.Pipeline.Value

noncomputable section

namespace Cert.KernelIdeal.UpdValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- An entry of the row that is normalised depends only on row p of the features and of the summed messages and on
    the count of row p (the weights and the bias being the same). -/
theorem hidAt_congr {a a' : ℕ} (x ms : Cert.Spec.Mat a 64) (cnt : Cert.Spec.Mat a 1)
    (x' ms' : Cert.Spec.Mat a' 64) (cnt' : Cert.Spec.Mat a' 1) (wx wm : Cert.Spec.Mat 64 64) (b : Cert.Spec.Mat 1 64)
    (p : Fin a) (p' : Fin a') (q : Fin 64)
    (hx : ∀ k : Fin 64, x (ix2 p k) = x' (ix2 p' k)) (hms : ∀ k : Fin 64, ms (ix2 p k) = ms' (ix2 p' k))
    (hcnt : cnt (ix2 p (0 : Fin 1)) = cnt' (ix2 p' (0 : Fin 1))) :
    Cert.Spec.hidAt x ms cnt wx wm b p q = Cert.Spec.hidAt x' ms' cnt' wx wm b p' q := by
  unfold Cert.Spec.hidAt
  rw [hcnt]
  simp only [hx, hms]

/-- An updated entry depends only on row p of the features and of the summed messages, on the count of row p, and
    on the small arrays: two sets of arrays that agree there give the same entry. -/
theorem updAt_congr {a a' : ℕ} (x ms : Cert.Spec.Mat a 64) (cnt : Cert.Spec.Mat a 1)
    (x' ms' : Cert.Spec.Mat a' 64) (cnt' : Cert.Spec.Mat a' 1) (wx wm wx' wm' : Cert.Spec.Mat 64 64)
    (b g be b' g' be' : Cert.Spec.Mat 1 64) (p : Fin a) (p' : Fin a') (q : Fin 64)
    (hx : ∀ k : Fin 64, x (ix2 p k) = x' (ix2 p' k)) (hms : ∀ k : Fin 64, ms (ix2 p k) = ms' (ix2 p' k))
    (hcnt : cnt (ix2 p (0 : Fin 1)) = cnt' (ix2 p' (0 : Fin 1)))
    (hwx : wx = wx') (hwm : wm = wm') (hb : b = b') (hg : g = g') (hbe : be = be') :
    Cert.Spec.updAt x ms cnt wx wm b g be p q = Cert.Spec.updAt x' ms' cnt' wx' wm' b' g' be' p' q := by
  subst hwx hwm hb hg hbe
  unfold Cert.Spec.updAt
  exact congrArg (fun h => Cert.Spec.normAt h g be q)
    (funext fun k => hidAt_congr x ms cnt x' ms' cnt' wx wm b p p' k hx hms hcnt)

variable (V : (c : Dev nD) → (b : Ref sig .tc) → Buf (Elt Ideal) ((c : Thread nD τ).loc b))

/-! ## Where the blocks sit -/

/-- The index maps over the grid, decided once: the blocks of node rows, of counts and of the output are block t along
    the rows and the only block along the columns; the five small blocks are block (0, 0) at every point. -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- Row p of the block of node features at point t is row 5000 t + p of the array. -/
theorem feature_rows (c : Dev nD) (t : Fin cfg1.N) (p : Fin 5000) (k : Fin 64) (r : Fin 100000)
    (hr : r.val = t.val * 5000 + p.val) :
    (iblk1 V c 0 t : Vec Ideal S5000x64 .f32) (ix2 p k) = (V c main_arg0 : Cert.Spec.Mat 100000 64) (ix2 r k) := by
  obtain ⟨⟨e0, e1⟩, -⟩ := block_indices t
  show V c main_arg0 (((cfg1.win 0).blk t).view.emb (ix2 p k)) = V c main_arg0 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Row p of the block of summed messages at point t is row 5000 t + p of the array. -/
theorem message_rows (c : Dev nD) (t : Fin cfg1.N) (p : Fin 5000) (k : Fin 64) (r : Fin 100000)
    (hr : r.val = t.val * 5000 + p.val) :
    (iblk1 V c 1 t : Vec Ideal S5000x64 .f32) (ix2 p k) = (V c main_v26 : Cert.Spec.Mat 100000 64) (ix2 r k) := by
  obtain ⟨-, ⟨e0, e1⟩, -⟩ := block_indices t
  show V c main_v26 (((cfg1.win 1).blk t).view.emb (ix2 p k)) = V c main_v26 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 64 + 1 * k.val = k.val; omega

/-- Entry p of the block of counts at point t is the count of row 5000 t + p. -/
theorem count_rows (c : Dev nD) (t : Fin cfg1.N) (p : Fin 5000) (r : Fin 100000)
    (hr : r.val = t.val * 5000 + p.val) :
    (iblk1 V c 2 t : Vec Ideal S5000x1 .f32) (ix2 p (0 : Fin 1))
      = (V c main_v31 : Cert.Spec.Mat 100000 1) (ix2 r (0 : Fin 1)) := by
  obtain ⟨-, -, ⟨e0, e1⟩, -⟩ := block_indices t
  show V c main_v31 (((cfg1.win 2).blk t).view.emb (ix2 p (0 : Fin 1))) = V c main_v31 (ix2 r (0 : Fin 1))
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * (0 : Fin 1).val = (0 : Fin 1).val; omega

/-- The block of the feature weight matrix at any point is the matrix. -/
theorem feature_weights (c : Dev nD) (t : Fin cfg1.N) :
    (iblk1 V c 3 t : Cert.Spec.Mat 64 64) = V c main_v34 := by
  obtain ⟨-, -, -, ⟨e0, e1⟩, -⟩ := block_indices t
  funext j
  show V c main_v34 (((cfg1.win 3).blk t).view.emb j) = V c main_v34 j
  refine congrArg _ (funext fun a => Fin.ext ?_)
  match a with
  | ⟨0, _⟩ => show win1_3.index t (0 : Fin 2) * 64 + 1 * (j 0).val = (j 0).val; omega
  | ⟨1, _⟩ => show win1_3.index t (1 : Fin 2) * 64 + 1 * (j 1).val = (j 1).val; omega

/-- The block of the message weight matrix at any point is the matrix. -/
theorem message_weights (c : Dev nD) (t : Fin cfg1.N) :
    (iblk1 V c 4 t : Cert.Spec.Mat 64 64) = V c main_v35 := by
  obtain ⟨-, -, -, -, ⟨e0, e1⟩, -⟩ := block_indices t
  funext j
  show V c main_v35 (((cfg1.win 4).blk t).view.emb j) = V c main_v35 j
  refine congrArg _ (funext fun a => Fin.ext ?_)
  match a with
  | ⟨0, _⟩ => show win1_4.index t (0 : Fin 2) * 64 + 1 * (j 0).val = (j 0).val; omega
  | ⟨1, _⟩ => show win1_4.index t (1 : Fin 2) * 64 + 1 * (j 1).val = (j 1).val; omega

/-- The block of the bias row at any point is the row. -/
theorem bias_row (c : Dev nD) (t : Fin cfg1.N) :
    (iblk1 V c 5 t : Cert.Spec.Mat 1 64) = V c main_v36 := by
  obtain ⟨-, -, -, -, -, ⟨e0, e1⟩, -⟩ := block_indices t
  funext j
  show V c main_v36 (((cfg1.win 5).blk t).view.emb j) = V c main_v36 j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 64 + 1 * (j 1).val = (j 1).val; omega

/-- The block of the normalisation's scale row at any point is the row. -/
theorem scale_row (c : Dev nD) (t : Fin cfg1.N) :
    (iblk1 V c 6 t : Cert.Spec.Mat 1 64) = V c main_v37 := by
  obtain ⟨-, -, -, -, -, -, ⟨e0, e1⟩, -⟩ := block_indices t
  funext j
  show V c main_v37 (((cfg1.win 6).blk t).view.emb j) = V c main_v37 j
  refine congrArg _ (funext fun a => Fin.ext ?_)
  match a with
  | ⟨0, _⟩ => show win1_6.index t (0 : Fin 2) * 1 + 1 * (j 0).val = (j 0).val; omega
  | ⟨1, _⟩ => show win1_6.index t (1 : Fin 2) * 64 + 1 * (j 1).val = (j 1).val; omega

/-- The block of the normalisation's shift row at any point is the row. -/
theorem shift_row (c : Dev nD) (t : Fin cfg1.N) :
    (iblk1 V c 7 t : Cert.Spec.Mat 1 64) = V c main_v38 := by
  obtain ⟨-, -, -, -, -, -, -, ⟨e0, e1⟩, -⟩ := block_indices t
  funext j
  show V c main_v38 (((cfg1.win 7).blk t).view.emb j) = V c main_v38 j
  refine congrArg _ (funext fun a => Fin.ext ?_)
  match a with
  | ⟨0, _⟩ => show win1_7.index t (0 : Fin 2) * 1 + 1 * (j 0).val = (j 0).val; omega
  | ⟨1, _⟩ => show win1_7.index t (1 : Fin 2) * 64 + 1 * (j 1).val = (j 1).val; omega

/-- Entry (p, q) of the output block at point t sits at row 5000 t + p, column q of the output array. -/
theorem output_rows (t : Fin cfg1.N) (p : Fin 5000) (q : Fin 64) (r : Fin 100000)
    (hr : r.val = t.val * 5000 + p.val) :
    ((cfg1.win 8).blk t).view.emb (ix2 p q) = (ix2 r q : S100000x64.Idx) := by
  obtain ⟨-, -, -, -, -, -, -, -, e0, e1⟩ := block_indices t
  refine funext fun a => Fin.ext ?_
  match a with
  | ⟨0, _⟩ => show win1_8.index t (0 : Fin 2) * 5000 + 1 * p.val = r.val; omega
  | ⟨1, _⟩ => show win1_8.index t (1 : Fin 2) * 64 + 1 * q.val = q.val; omega

/-! ## What a point writes back -/

/-- WHAT POINT t WRITES BACK is block t of the array of all updated features of the arrays the kernel finds. -/
theorem flushed_eq (c : Dev nD) (t : Fin cfg1.N) :
    (dat1 (F := Ideal) V c).flushed 8 t
      = ((cfg1.win 8).blk t).view.read (Elt Ideal)
          (Cert.Spec.updArr (V c main_arg0) (V c main_v26) (V c main_v31) (V c main_v34) (V c main_v35)
            (V c main_v36) (V c main_v37) (V c main_v38)) := by
  show (cfg1.win 8).cut (grid1.coords t) ((dat1 (F := Ideal) V c).after 8 t) = _
  rw [after1_8, block_eq]
  funext j
  obtain ⟨p, q, rfl⟩ : ∃ (p : Fin 5000) (q : Fin 64), j = ix2 p q := ⟨j 0, j 1, eq_ix2 j⟩
  have ht : t.val < 20 := lt_of_lt_of_eq t.isLt N_1
  obtain ⟨r, hr⟩ : ∃ r : Fin 100000, r.val = t.val * 5000 + p.val :=
    ⟨⟨t.val * 5000 + p.val, by have := p.isLt; omega⟩, rfl⟩
  show Cert.Spec.updAt (iblk1 V c 0 t) (iblk1 V c 1 t) (iblk1 V c 2 t) (iblk1 V c 3 t) (iblk1 V c 4 t)
      (iblk1 V c 5 t) (iblk1 V c 6 t) (iblk1 V c 7 t) p q
    = Cert.Spec.updArr (V c main_arg0) (V c main_v26) (V c main_v31) (V c main_v34) (V c main_v35)
        (V c main_v36) (V c main_v37) (V c main_v38) (((cfg1.win 8).blk t).view.emb (ix2 p q))
  rw [output_rows t p q r hr]
  exact updAt_congr (a := 5000) (a' := 100000) (iblk1 V c 0 t) (iblk1 V c 1 t) (iblk1 V c 2 t)
    (V c main_arg0) (V c main_v26) (V c main_v31) (iblk1 V c 3 t) (iblk1 V c 4 t) (V c main_v34) (V c main_v35)
    (iblk1 V c 5 t) (iblk1 V c 6 t) (iblk1 V c 7 t) (V c main_v36) (V c main_v37) (V c main_v38) p r q
    (fun k => feature_rows V c t p k r hr) (fun k => message_rows V c t p k r hr) (count_rows V c t p r hr)
    (feature_weights V c t) (message_weights V c t) (bias_row V c t) (scale_row V c t) (shift_row V c t)

/-! ## The blocks cover the array -/

/-- A row and column of the output array lie in point t's block iff each coordinate is in the block's range. -/
theorem mem_block (t : Fin cfg1.N) (i : S100000x64.Idx) :
    i ∈ ((cfg1.win 8).blk t).view.set ↔ ∀ a : Fin 2, win1_8.index t a * S5000x64.size a ≤ (i a).val
      ∧ (i a).val < win1_8.index t a * S5000x64.size a + S5000x64.size a := by
  show i ∈ ((View.whole main_v39).slice (win1_8.rect t)).set ↔ _
  rw [View.set_slice_whole, Rect.mem_set_unit]
  exact Iff.rfl

/-- Row r of the output array lies in the block of point r / 5000, which writes it back. -/
theorem covered (i : S100000x64.Idx) :
    ∃ t : Fin cfg1.N, (cfg1.win 8).flush t = true ∧ i ∈ ((cfg1.win 8).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := block_indices t
  refine ⟨t, flush1_8 t, ?_⟩
  rw [mem_block]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-! ## The array after the run -/

/-- THE UPDATED FEATURES after the second kernel's run are the array of all updated features of the arrays the
    kernel finds, whatever those are. -/
theorem upd_final (c : Dev nD) :
    (Gen.dat1 (F := Ideal) V c).arrAt 8 cfg1.N
      = Cert.Spec.updArr (V c main_arg0) (V c main_v26) (V c main_v31) (V c main_v34) (V c main_v35)
          (V c main_v36) (V c main_v37) (V c main_v38) :=
  (dat1 (F := Ideal) V c).arrAt_eq_of_cover 8
    (Cert.Spec.updArr (V c main_arg0) (V c main_v26) (V c main_v31) (V c main_v34) (V c main_v35)
      (V c main_v36) (V c main_v37) (V c main_v38))
    (fun t _ => flushed_eq V c t) covered

end Cert.KernelIdeal.UpdValue

end
-- ==== Proof.RefMsg.lean ====
/-
  The reference's messages, entry by entry.

  For an edge `p` the reference forms the gathered source row times the first weight half plus the
  gathered target row times the second weight half, adds the bias row and takes the larger of that
  and zero. Read at entry `(p, q)` each product is a sum over the 64 features, the bias is read at
  `(0, q)`, and the result is the specification's message entry.
-/
import proofs.«166541_j35613868819191_1_alg».proof.Proof.Gen.ReferenceIdeal.Read
import proofs.«166541_j35613868819191_1_alg».proof.Proof.Spec

noncomputable section

namespace Cert.ReferenceIdeal.RefValue

open Cert.ReferenceIdeal Cert.ReferenceIdeal.Read Idealize.ShloMosaic Idealize.ShloMosaic.ValueIdx
open scoped BigOperators

/-- The left factor of either product at `(p, q)`, summand `k`, is read at `(p, k)`. -/
theorem lidx_msg_src (p : Fin 1600000) (q k : Fin 64) : lidx_main_v14 (ix2 p q) k = ix2 p k :=
  funext fun a => Fin.ext (by match a with | ⟨0, _⟩ => rfl | ⟨1, _⟩ => rfl)

/-- The right factor at `(p, q)`, summand `k`, is read at `(k, q)`. -/
theorem ridx_msg_src (p : Fin 1600000) (q k : Fin 64) : ridx_main_v14 (ix2 p q) k = ix2 k q :=
  funext fun a => Fin.ext (by match a with | ⟨0, _⟩ => rfl | ⟨1, _⟩ => rfl)

theorem lidx_msg_tgt (p : Fin 1600000) (q k : Fin 64) : lidx_main_v23 (ix2 p q) k = ix2 p k :=
  funext fun a => Fin.ext (by match a with | ⟨0, _⟩ => rfl | ⟨1, _⟩ => rfl)

theorem ridx_msg_tgt (p : Fin 1600000) (q k : Fin 64) : ridx_main_v23 (ix2 p q) k = ix2 k q :=
  funext fun a => Fin.ext (by match a with | ⟨0, _⟩ => rfl | ⟨1, _⟩ => rfl)

/-- The bias row broadcast over the edges is read at `(0, q)`. -/
theorem idx_msg_bias (p : Fin 1600000) (q : Fin 64) : idx_main_v26 (ix2 p q) = ix2 (0 : Fin 1) q :=
  funext fun a => Fin.ext (by match a with | ⟨0, _⟩ => rfl | ⟨1, _⟩ => rfl)

/-- The reference's messages are the specification's message array of the two gathered rows, the two
    transposed weight halves and the bias row. -/
theorem ref_msg (x0 : (⟨S100000x64, .f32⟩ : BufTy).Contents (Elt Ideal)) (x1 : (⟨S1600000x2, .i32⟩ : BufTy).Contents (Elt Ideal))
    (x2 : (⟨S64x128, .f32⟩ : BufTy).Contents (Elt Ideal)) (x3 : (⟨S64, .f32⟩ : BufTy).Contents (Elt Ideal)) :
    val_main_v28 (F := Ideal) x0 x1 x2 x3
      = Cert.Spec.msgArr (val_main_v12 (F := Ideal) x0 x1) (val_main_v21 (F := Ideal) x0 x1)
          (val_main_v13 (F := Ideal) x2) (val_main_v22 (F := Ideal) x2) (val_main_v25 (F := Ideal) x3) := by
  funext i
  obtain ⟨p, q, rfl⟩ : ∃ (p : Fin 1600000) (q : Fin 64), i = ix2 p q := ⟨i 0, i 1, eq_ix2 i⟩
  rw [val_main_v28_apply, val_main_v27_apply, val_main_v24_apply, val_main_v14_apply, val_main_v23_apply,
    val_main_v26_apply, val_main_call0_v0_apply, val_main_call0_cst_apply]
  generalize val_main_v12 (F := Ideal) x0 x1 = xs
  generalize val_main_v21 (F := Ideal) x0 x1 = xt
  generalize val_main_v13 (F := Ideal) x2 = ws
  generalize val_main_v22 (F := Ideal) x2 = wt
  generalize val_main_v25 (F := Ideal) x3 = b
  simp only [lidx_msg_src, ridx_msg_src, lidx_msg_tgt, ridx_msg_tgt, idx_msg_bias, Ideal.addf_def, Ideal.maximumf_def,
    Ideal.ofBits_def]
  rfl

end Cert.ReferenceIdeal.RefValue

end
-- ==== Proof.RefUpd.lean ====
/-
  The reference's updated node features, entry by entry.

  For a node `p` the reference divides the summed incoming messages by the larger of the incoming-edge
  count and one, multiplies the node's own row and that average by the two update-weight halves, adds
  the bias, takes the larger of that and zero and adds the node's own row: this is the row `h` that is
  then normalised. The mean of `h` is the sum of its 64 entries over 64, the variance the mean of the
  squared deviations, and entry `q` of the result is the deviation of `h q` times the inverse square
  root of the variance plus epsilon, times the scale, plus the shift. Each stage is read at an entry
  from the stages before it; the sums start from the word for zero, which is the real zero.
-/
import proofs.«166541_j35613868819191_1_alg».proof.Proof.Gen.ReferenceIdeal.Read
import proofs.«166541_j35613868819191_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-! ### Where each stage reads its operands -/

/-- The count column broadcast along a row is read at `(p, 0)`. -/
theorem idx_cnt_row (p : Fin 100000) (k : Fin 64) : idx_main_v39 (ix2 p k) = ix2 p (0 : Fin 1) := funext fun a => Fin.ext (by match a with | ⟨0, _⟩ => rfl | ⟨1, _⟩ => rfl)
/-- The count vector as a column is read at `p`. -/
theorem idx_cnt_col (p : Fin 100000) : idx_main_v38 (ix2 p (0 : Fin 1)) = ix1 p := funext fun a => Fin.ext (by match a with | ⟨0, _⟩ => rfl)
theorem lidx_upd_self (p : Fin 100000) (q k : Fin 64) : lidx_main_v44 (ix2 p q) k = ix2 p k := funext fun a => Fin.ext (by match a with | ⟨0, _⟩ => rfl | ⟨1, _⟩ => rfl)
theorem ridx_upd_self (p : Fin 100000) (q k : Fin 64) : ridx_main_v44 (ix2 p q) k = ix2 k q := funext fun a => Fin.ext (by match a with | ⟨0, _⟩ => rfl | ⟨1, _⟩ => rfl)
theorem lidx_upd_avg (p : Fin 100000) (q k : Fin 64) : lidx_main_v46 (ix2 p q) k = ix2 p k := funext fun a => Fin.ext (by match a with | ⟨0, _⟩ => rfl | ⟨1, _⟩ => rfl)
theorem ridx_upd_avg (p : Fin 100000) (q k : Fin 64) : ridx_main_v46 (ix2 p q) k = ix2 k q := funext fun a => Fin.ext (by match a with | ⟨0, _⟩ => rfl | ⟨1, _⟩ => rfl)
theorem idx_upd_bias (p : Fin 100000) (q : Fin 64) : idx_main_v49 (ix2 p q) = ix2 (0 : Fin 1) q := funext fun a => Fin.ext (by match a with | ⟨0, _⟩ => rfl | ⟨1, _⟩ => rfl)
theorem idx_sum_col (p : Fin 100000) : idx_main_v54 (ix2 p (0 : Fin 1)) = ix1 p := funext fun a => Fin.ext (by match a with | ⟨0, _⟩ => rfl)
theorem idx_sum_row (p : Fin 100000) (k : Fin 64) : idx_main_v53 (ix1 p) k = ix2 p k := funext fun a => Fin.ext (by match a with | ⟨0, _⟩ => rfl | ⟨1, _⟩ => rfl)
theorem idx_mean_row (p : Fin 100000) (k : Fin 64) : idx_main_v57 (ix2 p k) = ix2 p (0 : Fin 1) := funext fun a => Fin.ext (by match a with | ⟨0, _⟩ => rfl | ⟨1, _⟩ => rfl)
theorem idx_mean_row' (p : Fin 100000) (k : Fin 64) : idx_main_v64 (ix2 p k) = ix2 p (0 : Fin 1) := funext fun a => Fin.ext (by match a with | ⟨0, _⟩ => rfl | ⟨1, _⟩ => rfl)
theorem idx_sq_col (p : Fin 100000) : idx_main_v61 (ix2 p (0 : Fin 1)) = ix1 p := funext fun a => Fin.ext (by match a with | ⟨0, _⟩ => rfl)
theorem idx_sq_row (p : Fin 100000) (k : Fin 64) : idx_main_v60 (ix1 p) k = ix2 p k := funext fun a => Fin.ext (by match a with | ⟨0, _⟩ => rfl | ⟨1, _⟩ => rfl)
theorem idx_rsqrt_row (p : Fin 100000) (q : Fin 64) : idx_main_v69 (ix2 p q) = ix2 p (0 : Fin 1) := funext fun a => Fin.ext (by match a with | ⟨0, _⟩ => rfl | ⟨1, _⟩ => rfl)
theorem idx_scale (p : Fin 100000) (q : Fin 64) : idx_main_v72 (ix2 p q) = ix2 (0 : Fin 1) q := funext fun a => Fin.ext (by match a with | ⟨0, _⟩ => rfl | ⟨1, _⟩ => rfl)
theorem idx_shift (p : Fin 100000) (q : Fin 64) : idx_main_v75 (ix2 p q) = ix2 (0 : Fin 1) q := funext fun a => Fin.ext (by match a with | ⟨0, _⟩ => rfl | ⟨1, _⟩ => rfl)

/-- A vector of 100000 entries laid out as a column, read at `(p, 0)`, is the vector at `p`. -/
theorem col_apply {α : Type} (c : S100000.Idx → α) (p : Fin 100000) :
    broadcastInDim S100000x1 ![0] bcast_S100000_S100000x1_0 c (ix2 p (0 : Fin 1)) = c (ix1 p) :=
  broadcastInDim_apply _ bcast_S100000_S100000x1_0 c (ix2 p (0 : Fin 1)) (ix1 p) (fun a => match a with
    | ⟨0, _⟩ => by show p.val = if (100000 : Nat) = 1 then 0 else p.val; rw [if_neg (by decide)])

variable (x0 : (⟨S100000x64, .f32⟩ : BufTy).Contents (Elt Ideal)) (x1 : (⟨S1600000x2, .i32⟩ : BufTy).Contents (Elt Ideal))
  (x2 : (⟨S64x128, .f32⟩ : BufTy).Contents (Elt Ideal)) (x3 : (⟨S64, .f32⟩ : BufTy).Contents (Elt Ideal))
  (x4 : (⟨S64x128, .f32⟩ : BufTy).Contents (Elt Ideal)) (x5 x6 x7 : (⟨S64, .f32⟩ : BufTy).Contents (Elt Ideal))

/-! ### The averaged messages and the row that is normalised -/

/-- The averaged incoming message of node `p`, entry `k`: the summed messages over the larger of the count and one. -/
theorem ref_avg (p : Fin 100000) (k : Fin 64) :
    val_main_v40 (F := Ideal) x0 x1 x2 x3 (ix2 p k)
      = Ideal.div (val_main_v31 (F := Ideal) x0 x1 x2 x3 (ix2 p k))
          (max (val_main_v35 (F := Ideal) x1 (ix1 p)) (Ideal.ofBits .f32 0x3F800000#32)) := by
  rw [val_main_v40_apply, val_main_v39_apply, val_main_v38_apply, val_main_v37_apply, val_main_v36_apply,
    val_main_cst_5_apply]
  generalize val_main_v31 (F := Ideal) x0 x1 x2 x3 = ms
  generalize val_main_v35 (F := Ideal) x1 = c
  simp only [idx_cnt_row, idx_cnt_col, Ideal.hostDivf_def, Ideal.maximumf_def, Ideal.ofBits_def]

/-- The row that is normalised, for node `p`: the specification's hidden row of the node features, the summed
    messages, the incoming-edge counts as a column, the two transposed update-weight halves and the bias row. -/
def hrow (p : Fin 100000) : Fin 64 → EReal := fun q =>
  Cert.Spec.hidAt x0 (val_main_v31 (F := Ideal) x0 x1 x2 x3)
    (broadcastInDim S100000x1 ![0] bcast_S100000_S100000x1_0 (val_main_v35 (F := Ideal) x1))
    (val_main_v43 (F := Ideal) x4) (val_main_v45 (F := Ideal) x4) (val_main_v48 (F := Ideal) x5) p q

/-- The reference's row before normalisation is that row. -/
theorem ref_hid (p : Fin 100000) (q : Fin 64) :
    val_main_v52 (F := Ideal) x0 x1 x2 x3 x4 x5 (ix2 p q) = hrow x0 x1 x2 x3 x4 x5 p q := by
  rw [val_main_v52_apply, val_main_v51_apply, val_main_v50_apply, val_main_v47_apply, val_main_v44_apply,
    val_main_v46_apply, val_main_v49_apply, val_main_call1_v0_apply, val_main_call1_cst_apply]
  unfold hrow Cert.Spec.hidAt
  simp only [lidx_upd_self, ridx_upd_self, lidx_upd_avg, ridx_upd_avg, idx_upd_bias, ref_avg,
    Ideal.addf_def, Ideal.maximumf_def, Ideal.ofBits_def]
  rw [col_apply (val_main_v35 (F := Ideal) x1) p]

/-! ### Mean, deviations, variance -/

/-- The reference's row mean is the mean of that row. -/
theorem ref_mean (p : Fin 100000) :
    val_main_v56 (F := Ideal) x0 x1 x2 x3 x4 x5 (ix2 p (0 : Fin 1)) = Cert.Spec.meanAt (hrow x0 x1 x2 x3 x4 x5 p) := by
  rw [val_main_v56_apply, val_main_v54_apply, val_main_v53_apply, val_main_v55_apply, val_main_cst_7_apply,
    val_main_cst_6_apply]
  simp only [idx_sum_col, idx_sum_row, ref_hid, Ideal.hostDivf_def, Ideal.ofBits_def, Ideal.ofBits_zero_f32, zero_add]
  rfl

/-- The deviation of entry `k` from the row mean, as the variance reads it. -/
theorem ref_dev (p : Fin 100000) (k : Fin 64) :
    val_main_v58 (F := Ideal) x0 x1 x2 x3 x4 x5 (ix2 p k) = hrow x0 x1 x2 x3 x4 x5 p k - Cert.Spec.meanAt (hrow x0 x1 x2 x3 x4 x5 p) := by
  rw [val_main_v58_apply, val_main_v57_apply]
  simp only [idx_mean_row, ref_hid, ref_mean, Ideal.subf_def]

/-- The same deviation, as the normalised entry reads it. -/
theorem ref_dev' (p : Fin 100000) (k : Fin 64) :
    val_main_v65 (F := Ideal) x0 x1 x2 x3 x4 x5 (ix2 p k) = hrow x0 x1 x2 x3 x4 x5 p k - Cert.Spec.meanAt (hrow x0 x1 x2 x3 x4 x5 p) := by
  rw [val_main_v65_apply, val_main_v64_apply]
  simp only [idx_mean_row', ref_hid, ref_mean, Ideal.subf_def]

/-- The reference's row variance is the mean of the squared deviations. -/
theorem ref_var (p : Fin 100000) :
    val_main_v63 (F := Ideal) x0 x1 x2 x3 x4 x5 (ix2 p (0 : Fin 1))
      = Cert.Spec.meanAt (fun k => (hrow x0 x1 x2 x3 x4 x5 p k - Cert.Spec.meanAt (hrow x0 x1 x2 x3 x4 x5 p))
          * (hrow x0 x1 x2 x3 x4 x5 p k - Cert.Spec.meanAt (hrow x0 x1 x2 x3 x4 x5 p))) := by
  rw [val_main_v63_apply, val_main_v61_apply, val_main_v60_apply, val_main_v62_apply, val_main_cst_9_apply,
    val_main_cst_8_apply]
  simp only [idx_sq_col, idx_sq_row, val_main_v59_apply, ref_dev, Ideal.hostDivf_def, Ideal.mulf_def, Ideal.ofBits_def,
    Ideal.ofBits_zero_f32, zero_add]
  rfl

/-! ### The normalised entry -/

/-- The reference's updated node features are the specification's update array of the node features, the summed
    messages, the incoming-edge counts as a column, the transposed update-weight halves, and the bias, scale and
    shift rows. -/
theorem ref_upd :
    val_main_v76 (F := Ideal) x0 x1 x2 x3 x4 x5 x6 x7
      = Cert.Spec.updArr x0 (val_main_v31 (F := Ideal) x0 x1 x2 x3)
          (broadcastInDim S100000x1 ![0] bcast_S100000_S100000x1_0 (val_main_v35 (F := Ideal) x1))
          (val_main_v43 (F := Ideal) x4) (val_main_v45 (F := Ideal) x4)
          (val_main_v48 (F := Ideal) x5) (val_main_v71 (F := Ideal) x6) (val_main_v74 (F := Ideal) x7) := by
  funext i
  obtain ⟨p, q, rfl⟩ : ∃ (p : Fin 100000) (q : Fin 64), i = ix2 p q := ⟨i 0, i 1, eq_ix2 i⟩
  rw [val_main_v76_apply, val_main_v73_apply, val_main_v70_apply, val_main_v69_apply, val_main_v68_apply,
    val_main_v67_apply, val_main_v66_apply, val_main_cst_10_apply, val_main_v72_apply, val_main_v75_apply]
  simp only [idx_rsqrt_row, idx_scale, idx_shift, ref_dev', ref_var, Ideal.addf_def, Ideal.mulf_def,
    Ideal.hostUnary_rsqrt_def, Ideal.ofBits_def]
  rfl

end Cert.ReferenceIdeal.RefValue

end
-- ==== Proof.Bridge.lean ====
/-
  The kernel program's result and the reference's, as functions of the eight arguments, are one function.

  Both programs gather the same rows, cut and transpose the same weight halves, scatter-add at the same raw
  target indices and count the incoming edges the same way: those host operations are the same terms on both
  sides. The message kernel's array is the reference's messages, and the update kernel's array the reference's
  normalised update, entry by entry. The one difference in spelling is how a [64] vector becomes a [1, 64] row —
  a re-laying in one program, a repetition along a unit axis in the other — and both read the vector at the
  column's index.
-/
import proofs.«166541_j35613868819191_1_alg».proof.Proof.HostValue
import proofs.«166541_j35613868819191_1_alg».proof.Proof.RefMsg
import proofs.«166541_j35613868819191_1_alg».proof.Proof.RefUpd
import Idealize.ShloMosaic.Lib.Pipeline.Value

set_option maxRecDepth 16384

noncomputable section

namespace Cert.Bridge

open Idealize.ShloMosaic Idealize.ShloMosaic.ValueIdx
open Cert.ReferenceIdeal.Read Cert.KernelIdeal.HostValue

abbrev A0 := (⟨Cert.ReferenceIdeal.S100000x64, .f32⟩ : BufTy).Contents (Elt Ideal)
abbrev A1 := (⟨Cert.ReferenceIdeal.S1600000x2, .i32⟩ : BufTy).Contents (Elt Ideal)
abbrev A2 := (⟨Cert.ReferenceIdeal.S64x128, .f32⟩ : BufTy).Contents (Elt Ideal)
abbrev A3 := (⟨Cert.ReferenceIdeal.S64, .f32⟩ : BufTy).Contents (Elt Ideal)

/-! ## The shared host operations are the same terms -/

theorem leaf_src (x0 : A0) (x1 : A1) : val_main_v12 (F := Ideal) x0 x1 = rowsAt x0 (srcIdx x1) := rfl
theorem leaf_tgt (x0 : A0) (x1 : A1) : val_main_v21 (F := Ideal) x0 x1 = rowsAt x0 (tgtIdx x1) := rfl
theorem leaf_msg_wl (x2 : A2) : val_main_v13 (F := Ideal) x2 = wLeftT x2 := rfl
theorem leaf_msg_wr (x2 : A2) : val_main_v22 (F := Ideal) x2 = wRightT x2 := rfl
theorem leaf_upd_wl (x4 : A2) : val_main_v43 (F := Ideal) x4 = wLeftT x4 := rfl
theorem leaf_upd_wr (x4 : A2) : val_main_v45 (F := Ideal) x4 = wRightT x4 := rfl
theorem leaf_sum (x0 : A0) (x1 : A1) (x2 : A2) (x3 : A3) :
    val_main_v31 (F := Ideal) x0 x1 x2 x3 = segSum (tgtIdx x1) (val_main_v28 (F := Ideal) x0 x1 x2 x3) := rfl
theorem leaf_cnt (x1 : A1) :
    broadcastInDim Cert.ReferenceIdeal.S100000x1 ![0] Cert.ReferenceIdeal.Facts₀.bcast_S100000_S100000x1_0 (val_main_v35 (F := Ideal) x1)
      = segCount (tgtIdx x1) := rfl

/-! ## A vector as a one-row matrix, either way -/

/-- A [64] vector repeated along a leading unit axis and the same vector re-laid as [1, 64] are one row: entry
    `(0, q)` of either is the vector's entry `q`. -/
theorem row_eq (b : A3) :
    broadcastInDim Cert.ReferenceIdeal.S1x64 ![1] Cert.ReferenceIdeal.Facts₀.bcast_S64_S1x64_1 b = rowOf b := by
  funext i
  unfold rowOf
  refine (broadcastInDim_apply _ Cert.ReferenceIdeal.Facts₀.bcast_S64_S1x64_1 b i (idx_main_v25 i) (fun a => match a with
    | ⟨0, _⟩ => by show (i 1).val = if (64 : Nat) = 1 then 0 else (i 1).val; rw [if_neg (by decide)])).trans ?_
  refine (shapeCast_apply b Cert.KernelIdeal.Facts₀.shapeCasts_S64_S1x64 i (idx_main_v25 i) ?_).symm
  rewrite [Shape.rowMajor_val_one, Shape.rowMajor_val_two]
  have h0 : (i 0).val < 1 := (i 0).isLt
  show (i 1).val = (i 0).val * 64 + (i 1).val
  omega

theorem leaf_msg_b (x3 : A3) : val_main_v25 (F := Ideal) x3 = rowOf x3 := row_eq x3
theorem leaf_upd_b (x5 : A3) : val_main_v48 (F := Ideal) x5 = rowOf x5 := row_eq x5
theorem leaf_upd_g (x6 : A3) : val_main_v71 (F := Ideal) x6 = rowOf x6 := row_eq x6
theorem leaf_upd_be (x7 : A3) : val_main_v74 (F := Ideal) x7 = rowOf x7 := row_eq x7

/-! ## The two results are one function -/

/-- The reference's result is the kernel program's, for any arguments. -/
theorem ref_eq_kernel (x0 : A0) (x1 : A1) (x2 : A2) (x3 : A3) (x4 : A2) (x5 x6 x7 : A3) :
    val_main_v76 (F := Ideal) x0 x1 x2 x3 x4 x5 x6 x7 = kernelOut x0 x1 x2 x3 x4 x5 x6 x7 := by
  rw [Cert.ReferenceIdeal.RefValue.ref_upd, leaf_sum, Cert.ReferenceIdeal.RefValue.ref_msg, leaf_cnt, leaf_src, leaf_tgt,
    leaf_msg_wl, leaf_msg_wr, leaf_msg_b, leaf_upd_wl, leaf_upd_wr, leaf_upd_b, leaf_upd_g, leaf_upd_be]
  rfl

end Cert.Bridge

end
-- ==== Proof.lean ====
/-
  A message-passing layer on a graph of 100000 nodes with 64 features and 1600000 edges, as a kernel program of
  two Pallas kernels among host operations, against its plain reference, over the extended reals.

  Both programs compute, for every edge, the message `relu (x[src] · Wsᵀ + x[tgt] · Wtᵀ + b)`; sum the messages
  into their target nodes and count each node's incoming edges; and replace every node's features `x` by the layer
  normalisation of `relu (x · Wxᵀ + (sum / max count 1) · Wmᵀ + b') + x`. The kernel program computes the messages in
  its first kernel (blocks of 6400 edges) and the update with the normalisation in its second (blocks of 5000 nodes);
  the gathers, the scatter-adds and the cutting of the weights are host operations, the same in both programs.

  The proof: the kernel program's run names its result array (`KernelRun`); that array is read back through the two
  kernels and the host operations between them as ONE function of the eight arguments (`MsgBlock`, `MsgArray`,
  `UpdBlock`, `UpdArray`, `HostValue`, `KernelValue`, over the specification `Spec`); the reference's result is read
  stage by stage as the same specification (`RefMsg`, `RefUpd`); and the two functions are one (`Bridge`). At the
  exact instance a change of float format is the identity and a matrix product, a lane sum and a host sum are plain
  finite sums over the same index sets on both sides, so no law beyond the congruence of those sums is needed, and the
  precondition (every float input finite) is never opened. The idealization rewrote nothing, so `preserves` is `True`.
-/
import proofs.«166541_j35613868819191_1_alg».proof.Defs
import proofs.«166541_j35613868819191_1_alg».proof.Proof.Gen.Kernel
import proofs.«166541_j35613868819191_1_alg».proof.Proof.Gen.Kernel.Skeleton
import proofs.«166541_j35613868819191_1_alg».proof.Proof.Gen.Kernel.Launch
import proofs.«166541_j35613868819191_1_alg».proof.Proof.Gen.Kernel.Points
import proofs.«166541_j35613868819191_1_alg».proof.Proof.Gen.Kernel.Frame
import proofs.«166541_j35613868819191_1_alg».proof.Proof.Gen.KernelIdeal
import proofs.«166541_j35613868819191_1_alg».proof.Proof.Gen.KernelIdeal.Skeleton
import proofs.«166541_j35613868819191_1_alg».proof.Proof.Gen.KernelIdeal.Launch
import proofs.«166541_j35613868819191_1_alg».proof.Proof.Gen.KernelIdeal.Points
import proofs.«166541_j35613868819191_1_alg».proof.Proof.Gen.KernelIdeal.Frame
import proofs.«166541_j35613868819191_1_alg».proof.Proof.Gen.ReferenceIdeal
import proofs.«166541_j35613868819191_1_alg».proof.Proof.Gen.ReferenceIdeal.Run
import proofs.«166541_j35613868819191_1_alg».proof.Proof.Gen.ReferenceIdeal.Read
import proofs.«166541_j35613868819191_1_alg».proof.Proof.Gen.Pre_finite_inputs
import proofs.«166541_j35613868819191_1_alg».proof.Proof.KernelRun
import proofs.«166541_j35613868819191_1_alg».proof.Proof.KernelValue
import proofs.«166541_j35613868819191_1_alg».proof.Proof.MsgArray
import proofs.«166541_j35613868819191_1_alg».proof.Proof.UpdArray
import proofs.«166541_j35613868819191_1_alg».proof.Proof.Bridge
import Idealize.ShloMosaic.Adequacy
import Idealize.ShloMosaic.Init

noncomputable section

namespace Cert.KernelIdeal.Whole

open Cert.KernelIdeal Cert.KernelIdeal.Gen Cert.KernelIdeal.HostValue
open Idealize.ShloMosaic Idealize.ShloMosaic.TcCoe Idealize.SL.Sem

/-- The result buffer's final contents are the layer's output of the launch contents of the arguments. -/
theorem result_eq (m : (ℓ : Loc nD τ sig) → Buf (Elt Ideal) ℓ) (ρ : Dev nD → PrngReg) (c : Dev nD) :
    W4 m ρ c (Proc.devRef .tc main_v39)
      = kernelOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  result_eq_of m ρ Cert.KernelIdeal.MsgValue.msg_final Cert.KernelIdeal.UpdValue.upd_final c

end Cert.KernelIdeal.Whole

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's output of the arguments in their result buffers: the kernel program by its
    named run and the reading of its result array, the reference by its run and the equality of the two functions. -/
theorem algebraic : Cert.algebraic_KernelIdeal_ReferenceIdeal := by
  intro m ρ m' ρ' _ hagree
  refine ⟨fun c => Cert.KernelIdeal.HostValue.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Whole.result_eq m ρ c), (h c).2⟩)
      (Cert.KernelIdeal.RunAll.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v76_eq, Cert.Bridge.ref_eq_kernel, (hagree c).1, (hagree c).2.1, (hagree c).2.2.1,
      (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
